-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S512x256x256 : Shape := ⟨3, ![512, 256, 256]⟩
abbrev S16x256x256 : Shape := ⟨3, ![16, 256, 256]⟩
abbrev S16x256x1 : Shape := ⟨3, ![16, 256, 1]⟩
abbrev S16x1x256 : Shape := ⟨3, ![16, 1, 256]⟩

abbrev nBuf : Space → Nat
  | .hbm => 4
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S512x256x256, .f32⟩
  | .hbm, ⟨2, _⟩ => ⟨S512x256x256, .f32⟩
  | .hbm, ⟨3, _⟩ => ⟨S8x64x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x64x256x256_S512x256x256 : S8x64x256x256.ShapeCasts S512x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  rotates_S16x256x256_d2 : S16x256x256.Rotates 2 none
  iota_S16x256x256_d2_w32 : S16x256x256.Iotas .tc 32 [2]
  slices_S16x256x256_o0_0_254_S16x256x1 : S16x256x256.Slices ![0, 0, 254] S16x256x1
  shapeCasts_S16x256x1_S16x256x1 : S16x256x1.ShapeCasts S16x256x1
  broadcasts_S16x256x1_S16x256x256 : S16x256x1.Broadcasts S16x256x256
  rotates_S16x256x256_d1 : S16x256x256.Rotates 1 none
  iota_S16x256x256_d1_w32 : S16x256x256.Iotas .tc 32 [1]
  slices_S16x256x256_o0_254_0_S16x1x256 : S16x256x256.Slices ![0, 254, 0] S16x1x256
  shapeCasts_S16x1x256_S16x1x256 : S16x1x256.ShapeCasts S16x1x256
  broadcasts_S16x1x256_S16x256x256 : S16x1x256.Broadcasts S16x256x256
  shapeCasts_S512x256x256_S8x64x256x256 : S512x256x256.ShapeCasts S8x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .f32 = 32 ∨ (Rect.block (s := S512x256x256) S16x256x256.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x64x1x256 : Shape := ⟨4, ![8, 64, 1, 256]⟩
abbrev S8x64x257x256 : Shape := ⟨4, ![8, 64, 257, 256]⟩
abbrev S8x64x257x1 : Shape := ⟨4, ![8, 64, 257, 1]⟩
abbrev S8x64x257x257 : Shape := ⟨4, ![8, 64, 257, 257]⟩

abbrev nBuf : Space → Nat
  | .hbm => 40
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S_, .i32⟩
  | .hbm, ⟨2, _⟩ => ⟨S8x64x1x256, .f32⟩
  | .hbm, ⟨3, _⟩ => ⟨S8x64x1x256, .f32⟩
  | .hbm, ⟨4, _⟩ => ⟨S8x64x1x256, .f32⟩
  | .hbm, ⟨5, _⟩ => ⟨S8x64x1x256, .f32⟩
  | .hbm, ⟨6, _⟩ => ⟨S8x64x257x256, .f32⟩
  | .hbm, ⟨7, _⟩ => ⟨S8x64x257x1, .f32⟩
  | .hbm, ⟨8, _⟩ => ⟨S8x64x257x1, .f32⟩
  | .hbm, ⟨9, _⟩ => ⟨S8x64x257x1, .f32⟩
  | .hbm, ⟨10, _⟩ => ⟨S8x64x257x1, .f32⟩
  | .hbm, ⟨11, _⟩ => ⟨S8x64x257x257, .f32⟩
  | .hbm, ⟨12, _⟩ => ⟨S8x64x256x256, .f32⟩
  | .hbm, ⟨13, _⟩ => ⟨S8x64x256x256, .f32⟩
  | .hbm, ⟨14, _⟩ => ⟨S8x64x256x256, .f32⟩
  | .hbm, ⟨15, _⟩ => ⟨S8x64x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S_, .f32⟩
  | .hbm, ⟨20, _⟩ => ⟨S8x64x256x256, .f32⟩
  | .hbm, ⟨21, _⟩ => ⟨S8x64x256x256, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S_, .f32⟩
  | .hbm, ⟨26, _⟩ => ⟨S8x64x256x256, .f32⟩
  | .hbm, ⟨27, _⟩ => ⟨S8x64x256x256, .f32⟩
  | .hbm, ⟨28, _⟩ => ⟨S8x64x256x256, .f32⟩
  | .hbm, ⟨29, _⟩ => ⟨S8x64x256x256, .f32⟩
  | .hbm, ⟨30, _⟩ => ⟨S8x64x256x256, .f32⟩
  | .hbm, ⟨31, _⟩ => ⟨S_, .f32⟩
  | .hbm, ⟨32, _⟩ => ⟨S8x64x256x256, .f32⟩
  | .hbm, ⟨33, _⟩ => ⟨S8x64x256x256, .f32⟩
  | .hbm, ⟨34, _⟩ => ⟨S8x64x256x256, .f32⟩
  | .hbm, ⟨35, _⟩ => ⟨S8x64x256x256, .f32⟩
  | .hbm, ⟨36, _⟩ => ⟨S8x64x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S8x64x256x256_S8x64x1x256_0_0_0_0 : S8x64x256x256.Slices ![0, 0, 0, 0] S8x64x1x256
  slices_S8x64x256x256_S8x64x1x256_0_0_255_0 : S8x64x256x256.Slices ![0, 0, 255, 0] S8x64x1x256
  slices_S8x64x256x256_S8x64x1x256_0_0_254_0 : S8x64x256x256.Slices ![0, 0, 254, 0] S8x64x1x256
  concatenates_S8x64x256x256_S8x64x1x256_S8x64x257x256_d2 : Shape.Concatenates [S8x64x256x256, S8x64x1x256] S8x64x257x256 2
  slices_S8x64x257x256_S8x64x257x1_0_0_0_0 : S8x64x257x256.Slices ![0, 0, 0, 0] S8x64x257x1
  slices_S8x64x257x256_S8x64x257x1_0_0_0_255 : S8x64x257x256.Slices ![0, 0, 0, 255] S8x64x257x1
  slices_S8x64x257x256_S8x64x257x1_0_0_0_254 : S8x64x257x256.Slices ![0, 0, 0, 254] S8x64x257x1
  concatenates_S8x64x257x256_S8x64x257x1_S8x64x257x257_d3 : Shape.Concatenates [S8x64x257x256, S8x64x257x1] S8x64x257x257 3
  slices_S8x64x257x257_S8x64x256x256_0_0_0_0 : S8x64x257x257.Slices ![0, 0, 0, 0] S8x64x256x256
  slices_S8x64x257x257_S8x64x256x256_0_0_0_1 : S8x64x257x257.Slices ![0, 0, 0, 1] S8x64x256x256
  slices_S8x64x257x257_S8x64x256x256_0_0_1_0 : S8x64x257x257.Slices ![0, 0, 1, 0] S8x64x256x256
  slices_S8x64x257x257_S8x64x256x256_0_0_1_1 : S8x64x257x257.Slices ![0, 0, 1, 1] S8x64x256x256
  bcast_S_S8x64x256x256 : S_.BroadcastsInDim S8x64x256x256 (![] : Fin 0 → Fin S8x64x256x256.rank)

variable [Facts₀]

class Facts : Prop extends Facts₀ where

variable [Facts]
-- ==== Proof.Haar.lean ====
/-
  The Haar edge magnitude as one function of the input array.

  At every position (h, w) of a 256 x 256 plane the four taps of the 2 x 2 stencil are
    a = x[h, w],  b = x[h, w'],  c = x[h', w],  d = x[h', w'],
  where h' = h + 1 and w' = w + 1, except that the far edge is reflected: 255' = 254 (`nx`).
  The three detail subbands are  hl = (a + b - c - d)/2,  lh = (a - b + c - d)/2,  hh = (a - b - c + d)/2,
  and the edge magnitude is sqrt (hl^2 + lh^2 + hh^2)  (`magR`).
  With p = a - d, q = b - c, r = (a + d) - (b + c) one has
    a + b - c - d = p + q,   a - b + c - d = p - q,   a - b - c + d = r,
  so  hl^2 + lh^2 + hh^2 = ((p + q)^2 + (p - q)^2 + r^2)/4 = (p^2 + q^2)/2 + r^2/4  (`magK`).
  The identity is one of real arithmetic (it expands products over sums and cancels), so it is stated for
  real taps; on the extended reals it fails at the infinities.
-/
import Idealize.ShloMosaic.PureOps.Ideal
import Idealize.ShloMosaic.Lib.ValueIdx

noncomputable section

namespace Cert.Haar

open Idealize.ShloMosaic Idealize.ShloMosaic.ValueIdx

/-- The neighbour one step up an axis of extent 256, reflected at the far edge: `255 ↦ 254`, otherwise `i ↦ i + 1`. -/
def nx (i : Fin 256) : Fin 256 :=
  if h : i.val = 255 then ⟨254, by decide⟩ else ⟨i.val + 1, by have := i.isLt; omega⟩

theorem nx_val (i : Fin 256) : (nx i).val = if i.val = 255 then 254 else i.val + 1 := by
  unfold nx; split <;> rfl

/-- The binary word of `0.5` denotes the real 1/2. -/
theorem half_eq : Ideal.ofBits .f32 0x3F000000#32 = ((1 / 2 : ℝ) : EReal) := by
  simp [Ideal.ofBits, Ideal.ieee, -EReal.coe_mul]; norm_num

/-- The binary word of `0.25` denotes the real 1/4. -/
theorem quarter_eq : Ideal.ofBits .f32 0x3E800000#32 = ((1 / 4 : ℝ) : EReal) := by
  simp [Ideal.ofBits, Ideal.ieee, -EReal.coe_mul]; norm_num

/-- The magnitude from the differences `p = a - d`, `q = b - c`, `r = (a + d) - (b + c)`:
    `sqrt ((p² + q²)/2 + r²/4)`. -/
def magK (a b c d : EReal) : EReal :=
  Ideal.sqrt (Ideal.ofBits .f32 0x3F000000#32 * ((a - d) * (a - d) + (b - c) * (b - c))
    + Ideal.ofBits .f32 0x3E800000#32 * (((a + d) - (b + c)) * ((a + d) - (b + c))))

/-- The magnitude from the three subbands: `sqrt (hl² + lh² + hh²)`. -/
def magR (a b c d : EReal) : EReal :=
  Ideal.sqrt (Ideal.ofBits .f32 0x3F000000#32 * (a + b - c - d) * (Ideal.ofBits .f32 0x3F000000#32 * (a + b - c - d))
    + Ideal.ofBits .f32 0x3F000000#32 * (a - b + c - d) * (Ideal.ofBits .f32 0x3F000000#32 * (a - b + c - d))
    + Ideal.ofBits .f32 0x3F000000#32 * (a - b - c + d) * (Ideal.ofBits .f32 0x3F000000#32 * (a - b - c + d)))

/-- On real taps the two forms are one number: `(p + q)² + (p - q)² = 2 (p² + q²)`. -/
theorem magK_eq_magR (a b c d : ℝ) : magK a b c d = magR a b c d := by
  unfold magK magR
  rw [half_eq, quarter_eq]
  simp only [← EReal.coe_add, ← EReal.coe_sub, ← EReal.coe_mul]
  refine congrArg Ideal.sqrt (congrArg _ ?_)
  ring

/-- The four taps at position `(h, w)` of plane `q` of a stack of `N` planes, combined by `mag`. -/
def tap3 {N : Nat} (mag : EReal → EReal → EReal → EReal → EReal) (y : (⟨3, ![N, 256, 256]⟩ : Shape).Idx → EReal)
    (q : Fin N) (h w : Fin 256) : EReal :=
  mag (y (ix3 q h w)) (y (ix3 q h (nx w))) (y (ix3 q (nx h) w)) (y (ix3 q (nx h) (nx w)))

/-- The edge magnitude of every plane of a stack of `N` planes. -/
def edge3 {N : Nat} (mag : EReal → EReal → EReal → EReal → EReal) (y : (⟨3, ![N, 256, 256]⟩ : Shape).Idx → EReal) :
    (⟨3, ![N, 256, 256]⟩ : Shape).Idx → EReal :=
  fun i => tap3 mag y (i 0) (i 1) (i 2)

theorem edge3_ix3 {N : Nat} (mag : EReal → EReal → EReal → EReal → EReal) (y : (⟨3, ![N, 256, 256]⟩ : Shape).Idx → EReal)
    (q : Fin N) (h w : Fin 256) : edge3 mag y (ix3 q h w) = tap3 mag y q h w := rfl

/-- The four taps at position `(h, w)` of plane `(n, ch)` of a batch of 8 x 64 planes, combined by `mag`. -/
def tap4 (mag : EReal → EReal → EReal → EReal → EReal) (x : (⟨4, ![8, 64, 256, 256]⟩ : Shape).Idx → EReal)
    (n : Fin 8) (ch : Fin 64) (h w : Fin 256) : EReal :=
  mag (x (ix4 n ch h w)) (x (ix4 n ch h (nx w))) (x (ix4 n ch (nx h) w)) (x (ix4 n ch (nx h) (nx w)))

/-- The edge magnitude of every plane of the batch. -/
def edge4 (mag : EReal → EReal → EReal → EReal → EReal) (x : (⟨4, ![8, 64, 256, 256]⟩ : Shape).Idx → EReal) :
    (⟨4, ![8, 64, 256, 256]⟩ : Shape).Idx → EReal :=
  fun i => tap4 mag x (i 0) (i 1) (i 2) (i 3)

theorem edge4_ix4 (mag : EReal → EReal → EReal → EReal → EReal) (x : (⟨4, ![8, 64, 256, 256]⟩ : Shape).Idx → EReal)
    (n : Fin 8) (ch : Fin 64) (h w : Fin 256) : edge4 mag x (ix4 n ch h w) = tap4 mag x n ch h w := rfl

/-- On an array of real entries the two forms of the magnitude give one array. -/
theorem edge4_magK_eq_magR (x : (⟨4, ![8, 64, 256, 256]⟩ : Shape).Idx → EReal) (hx : ∀ i, ∃ r : ℝ, x i = (r : EReal)) :
    edge4 magK x = edge4 magR x := by
  funext i
  unfold edge4 tap4
  obtain ⟨a, ha⟩ := hx (ix4 (i 0) (i 1) (i 2) (i 3))
  obtain ⟨b, hb⟩ := hx (ix4 (i 0) (i 1) (i 2) (nx (i 3)))
  obtain ⟨c, hc⟩ := hx (ix4 (i 0) (i 1) (nx (i 2)) (i 3))
  obtain ⟨d, hd⟩ := hx (ix4 (i 0) (i 1) (nx (i 2)) (nx (i 3)))
  rw [ha, hb, hc, hd]
  exact magK_eq_magR a b c d

end Cert.Haar

end
-- ==== Proof.Shift.lean ====
/-
  The kernel body's stored value, index by index.

  The body builds the stencil's neighbours without any padding. Along an axis of extent 256 it rotates the block
  by 255 places (entry i of the rotation is entry (i + 1) mod 256 of the block), and at the last position, where
  the rotation has wrapped around to entry 0, it puts entry 254 instead (the reflected neighbour of 255).
  So the combination "rotate, then select the broadcast of slice 254 where the coordinate is 255" reads the block
  at `nx` of the coordinate on that axis and leaves the other coordinates alone (`shiftW_apply` along the
  columns, `shiftH_apply` along the rows). The taps are then
    b = shiftW x,  c = shiftH x,  d = shiftH (shiftW x),
  and the stored value is the magnitude `magK` of (x, b, c, d) at each index (`pay_apply`).
-/
import proofs.«156266_j23579370455122_2_alg».proof.Proof.Gen.KernelIdeal.Skeleton
import proofs.«156266_j23579370455122_2_alg».proof.Proof.Haar
import Idealize.ShloMosaic.Lib.KernelVsHost
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen Cert.Haar

variable {F : FTy → Type} [FloatOps F]

/-- The block shifted one column up with the last column reflected: the rotation by 255 along the columns,
    except at column 255, where column 254 is taken. -/
def shiftW (y : FVec F S16x256x256 .f32) : FVec F S16x256x256 .f32 :=
  select (cmpi .eq (iota .tc S16x256x256 32 [2] iota_S16x256x256_d2_w32) (broadcast S16x256x256 255#32))
    (broadcastTo S16x256x256 (shapeCast S16x256x1 (extractStridedSlice S16x256x1 ![0, 0, 254] y slices_S16x256x256_o0_0_254_S16x256x1) shapeCasts_S16x256x1_S16x256x1) broadcasts_S16x256x1_S16x256x256)
    (dynamicRotate 2 255#32 none y rotates_S16x256x256_d2)

/-- The block shifted one row up with the last row reflected. -/
def shiftH (y : FVec F S16x256x256 .f32) : FVec F S16x256x256 .f32 :=
  select (cmpi .eq (iota .tc S16x256x256 32 [1] iota_S16x256x256_d1_w32) (broadcast S16x256x256 255#32))
    (broadcastTo S16x256x256 (shapeCast S16x1x256 (extractStridedSlice S16x1x256 ![0, 254, 0] y slices_S16x256x256_o0_254_0_S16x1x256) shapeCasts_S16x1x256_S16x1x256) broadcasts_S16x1x256_S16x256x256)
    (dynamicRotate 1 255#32 none y rotates_S16x256x256_d1)

/-- The comparison of a column (or row) number below 256 with 255, as a one-bit word. -/
theorem cmpi_eq_255 (w : Fin 256) :
    IntOp.cmpi .eq (BitVec.ofNat 32 w.val) 255#32 = if w.val = 255 then 1#1 else 0#1 := by
  unfold IntOp.cmpi
  split_ifs with h
  · rw [h]; rfl
  · have hne : (BitVec.ofNat 32 w.val == 255#32) = false := by
      rw [beq_eq_false_iff_ne]
      intro e
      apply h
      have e' := congrArg BitVec.toNat e
      rw [BitVec.toNat_ofNat, Nat.mod_eq_of_lt (by have := w.isLt; omega)] at e'
      exact e'
    show BitVec.ofBool (BitVec.ofNat 32 w.val == 255#32) = 0#1
    rw [hne]; rfl

theorem shiftW_apply (y : FVec F S16x256x256 .f32) (p : Fin 16) (h w : Fin 256) :
    shiftW y (ix3 p h w) = y (ix3 p h (nx w)) := by
  unfold shiftW
  rw [select_apply]
  have hrot : dynamicRotate 2 255#32 none y rotates_S16x256x256_d2 (ix3 p h w)
      = y (ix3 p h ⟨(w.val + 1) % 256, Nat.mod_lt _ (by decide)⟩) :=
    dynamicRotate_apply 2 255#32 y rotates_S16x256x256_d2 (ix3 p h w) _ (by
      intro b; fin_cases b
      · show _ = if (0 : Fin 3) = 2 then _ else _
        rw [if_neg (by decide)]
      · show _ = if (1 : Fin 3) = 2 then _ else _
        rw [if_neg (by decide)]
      · show _ = if (2 : Fin 3) = 2 then _ else _
        rw [if_pos rfl]
        show (w.val + 1) % 256 = (w.val + 256 - 255 % 256) % 256
        omega)
  have hsl : broadcastTo S16x256x256 (shapeCast S16x256x1 (extractStridedSlice S16x256x1 ![0, 0, 254] y slices_S16x256x256_o0_0_254_S16x256x1) shapeCasts_S16x256x1_S16x256x1) broadcasts_S16x256x1_S16x256x256 (ix3 p h w)
      = y (ix3 p h ⟨254, by decide⟩) := by
    rw [shapeCast_self]
    rw [broadcastTo_apply _ broadcasts_S16x256x1_S16x256x256 (ix3 p h w) (ix3 p h (0 : Fin 1)) (by
      intro a; fin_cases a
      · show p.val = if (16 : Nat) = 1 then 0 else p.val
        rw [if_neg (by decide)]
      · show h.val = if (256 : Nat) = 1 then 0 else h.val
        rw [if_neg (by decide)]
      · show (0 : Nat) = if (1 : Nat) = 1 then 0 else w.val
        rw [if_pos rfl])]
    exact extractStridedSlice_apply ![0, 0, 254] y slices_S16x256x256_o0_0_254_S16x256x1 (ix3 p h (0 : Fin 1)) (ix3 p h ⟨254, by decide⟩) (by
      intro a; fin_cases a
      · show p.val = 0 + p.val
        omega
      · show h.val = 0 + h.val
        omega
      · show (254 : Nat) = 254 + 0
        rfl)
  rw [hrot, hsl]
  show Scalar.select (IntOp.cmpi .eq (iota .tc S16x256x256 32 [2] iota_S16x256x256_d2_w32 (ix3 p h w)) 255#32) _ _ = _
  rw [iota_single_apply]
  show Scalar.select (IntOp.cmpi .eq (BitVec.ofNat 32 w.val) 255#32) _ _ = _
  rw [cmpi_eq_255]
  by_cases hw : w.val = 255
  · rw [if_pos hw, select_one]
    exact congrArg (fun k => y (ix3 p h k)) (Fin.ext (by rw [nx_val, if_pos hw]))
  · rw [if_neg hw, select_zero]
    exact congrArg (fun k => y (ix3 p h k)) (Fin.ext (by
      rw [nx_val, if_neg hw]
      show (w.val + 1) % 256 = w.val + 1
      have := w.isLt; omega))

theorem shiftH_apply (y : FVec F S16x256x256 .f32) (p : Fin 16) (h w : Fin 256) :
    shiftH y (ix3 p h w) = y (ix3 p (nx h) w) := by
  unfold shiftH
  rw [select_apply]
  have hrot : dynamicRotate 1 255#32 none y rotates_S16x256x256_d1 (ix3 p h w)
      = y (ix3 p ⟨(h.val + 1) % 256, Nat.mod_lt _ (by decide)⟩ w) :=
    dynamicRotate_apply 1 255#32 y rotates_S16x256x256_d1 (ix3 p h w) _ (by
      intro b; fin_cases b
      · show _ = if (0 : Fin 3) = 1 then _ else _
        rw [if_neg (by decide)]
      · show _ = if (1 : Fin 3) = 1 then _ else _
        rw [if_pos rfl]
        show (h.val + 1) % 256 = (h.val + 256 - 255 % 256) % 256
        omega
      · show _ = if (2 : Fin 3) = 1 then _ else _
        rw [if_neg (by decide)])
  have hsl : broadcastTo S16x256x256 (shapeCast S16x1x256 (extractStridedSlice S16x1x256 ![0, 254, 0] y slices_S16x256x256_o0_254_0_S16x1x256) shapeCasts_S16x1x256_S16x1x256) broadcasts_S16x1x256_S16x256x256 (ix3 p h w)
      = y (ix3 p ⟨254, by decide⟩ w) := by
    rw [shapeCast_self]
    rw [broadcastTo_apply _ broadcasts_S16x1x256_S16x256x256 (ix3 p h w) (ix3 p (0 : Fin 1) w) (by
      intro a; fin_cases a
      · show p.val = if (16 : Nat) = 1 then 0 else p.val
        rw [if_neg (by decide)]
      · show (0 : Nat) = if (1 : Nat) = 1 then 0 else h.val
        rw [if_pos rfl]
      · show w.val = if (256 : Nat) = 1 then 0 else w.val
        rw [if_neg (by decide)])]
    exact extractStridedSlice_apply ![0, 254, 0] y slices_S16x256x256_o0_254_0_S16x1x256 (ix3 p (0 : Fin 1) w) (ix3 p ⟨254, by decide⟩ w) (by
      intro a; fin_cases a
      · show p.val = 0 + p.val
        omega
      · show (254 : Nat) = 254 + 0
        rfl
      · show w.val = 0 + w.val
        omega)
  rw [hrot, hsl]
  show Scalar.select (IntOp.cmpi .eq (iota .tc S16x256x256 32 [1] iota_S16x256x256_d1_w32 (ix3 p h w)) 255#32) _ _ = _
  rw [iota_single_apply]
  show Scalar.select (IntOp.cmpi .eq (BitVec.ofNat 32 h.val) 255#32) _ _ = _
  rw [cmpi_eq_255]
  by_cases hh : h.val = 255
  · rw [if_pos hh, select_one]
    exact congrArg (fun k => y (ix3 p k w)) (Fin.ext (by rw [nx_val, if_pos hh]))
  · rw [if_neg hh, select_zero]
    exact congrArg (fun k => y (ix3 p k w)) (Fin.ext (by
      rw [nx_val, if_neg hh]
      show (h.val + 1) % 256 = h.val + 1
      have := h.isLt; omega))

/-- The body's arithmetic on the four taps, as arrays: `sqrt (0.5 (p² + q²) + 0.25 r²)` with
    `p = a - d`, `q = b - c`, `r = (a + d) - (b + c)`. -/
def combine (a b c d : FVec F S16x256x256 .f32) : FVec F S16x256x256 .f32 :=
  sqrt (addf (mulf (broadcast S16x256x256 (Scalar.ofBits .f32 0x3F000000#32))
      (addf (mulf (subf a d) (subf a d)) (mulf (subf b c) (subf b c))))
    (mulf (broadcast S16x256x256 (Scalar.ofBits .f32 0x3E800000#32))
      (mulf (subf (addf a d) (addf b c)) (subf (addf a d) (addf b c)))))

/-- The stored value is the combination of the block and its three shifts. -/
theorem pay_eq (v0 : Vec F S16x256x256 .f32) :
    k0_pay1 v0 = combine v0 (shiftW v0) (shiftH v0) (shiftH (shiftW v0)) := by
  unfold k0_pay1 combine shiftW shiftH
  simp only [shapeCast_self]

/-- At the exact instance the combination is `magK` of the four entries, index by index. -/
theorem combine_apply (a b c d : FVec Ideal S16x256x256 .f32) (i : S16x256x256.Idx) :
    combine a b c d i = magK (a i) (b i) (c i) (d i) := rfl

/-- The stored value at `(p, h, w)`: the magnitude of the block's four taps there. -/
theorem pay_apply (v0 : Vec Ideal S16x256x256 .f32) (p : Fin 16) (h w : Fin 256) :
    k0_pay1 v0 (ix3 p h w) = tap3 magK v0 p h w := by
  rw [pay_eq, combine_apply, shiftH_apply, shiftW_apply, shiftH_apply, shiftW_apply]
  rfl

end Cert.KernelIdeal.Body

end
-- ==== Proof.Stack.lean ====
/-
  The batch as a stack of planes.

  The program views the batch f32[8, 64, 256, 256] as a stack f32[512, 256, 256] and back. Both views keep the
  row-major position, so plane (n, ch) of the batch is plane 64 n + ch of the stack and rows and columns are
  untouched (`toStack_apply`, `fromStack_apply`). The stencil never leaves a plane, so the edge magnitude of the
  stack, viewed as a batch, is the edge magnitude of the batch (`kerOut_eq`).
-/
import proofs.«156266_j23579370455122_2_alg».proof.Proof.Gen.KernelIdeal
import proofs.«156266_j23579370455122_2_alg».proof.Proof.Haar
import Idealize.ShloMosaic.Lib.Pipeline.Value
import Idealize.ShloMosaic.Lib.ValueIdx

noncomputable section

namespace Cert.KernelIdeal.Stack

open Cert.KernelIdeal Cert.KernelIdeal.Gen Cert.Haar
open Idealize.ShloMosaic Idealize.ShloMosaic.ValueIdx

/-- Plane `(n, ch)` of the batch is plane `64 n + ch` of the stack. -/
def stackPlane (n : Fin 8) (ch : Fin 64) : Fin 512 :=
  ⟨n.val * 64 + ch.val, by have := n.isLt; have := ch.isLt; omega⟩

theorem toStack_apply (x : S8x64x256x256.Idx → EReal) (n : Fin 8) (ch : Fin 64) (h w : Fin 256) :
    shapeCast S512x256x256 x shapeCasts_S8x64x256x256_S512x256x256 (ix3 (stackPlane n ch) h w) = x (ix4 n ch h w) :=
  shapeCast_apply x _ (ix3 (stackPlane n ch) h w) (ix4 n ch h w) (by
    rw [Shape.rowMajor_val_four, Shape.rowMajor_val_three]
    show ((n.val * 64 + ch.val) * 256 + h.val) * 256 + w.val = ((n.val * 64 + ch.val) * 256 + h.val) * 256 + w.val
    rfl)

theorem fromStack_apply (Y : S512x256x256.Idx → EReal) (n : Fin 8) (ch : Fin 64) (h w : Fin 256) :
    shapeCast S8x64x256x256 Y shapeCasts_S512x256x256_S8x64x256x256 (ix4 n ch h w) = Y (ix3 (stackPlane n ch) h w) :=
  shapeCast_apply Y _ (ix4 n ch h w) (ix3 (stackPlane n ch) h w) (by
    rw [Shape.rowMajor_val_four, Shape.rowMajor_val_three]
    show ((n.val * 64 + ch.val) * 256 + h.val) * 256 + w.val = ((n.val * 64 + ch.val) * 256 + h.val) * 256 + w.val
    rfl)

/-- The program's result as a function of its argument: the batch viewed as a stack of 512 planes, the edge
    magnitude of every plane, the stack viewed as a batch again. -/
def kerOut (x : S8x64x256x256.Idx → EReal) : S8x64x256x256.Idx → EReal :=
  shapeCast S8x64x256x256 (edge3 magK (shapeCast S512x256x256 x shapeCasts_S8x64x256x256_S512x256x256))
    shapeCasts_S512x256x256_S8x64x256x256

/-- That function is the edge magnitude of the batch. -/
theorem kerOut_eq (x : S8x64x256x256.Idx → EReal) : kerOut x = edge4 magK x := by
  funext i
  obtain ⟨n, ch, h, w, rfl⟩ : ∃ (n : Fin 8) (ch : Fin 64) (h w : Fin 256), i = ix4 n ch h w :=
    ⟨i 0, i 1, i 2, i 3, eq_ix4 i⟩
  unfold kerOut
  rw [fromStack_apply, edge3_ix3, edge4_ix4]
  unfold tap3 tap4
  rw [toStack_apply, toStack_apply, toStack_apply, toStack_apply]

end Cert.KernelIdeal.Stack

end
-- ==== Proof.KerValue.lean ====
/-
  The kernel program's result as one function of its argument.

  The program views the batch of 8 x 64 planes as a stack of 512 planes, runs the body on 32 blocks of 16
  planes each (grid point t holds planes 16 t … 16 t + 15, whole, so every neighbour a plane needs lies in its
  own block), and views the stack of results as a batch again.
  Block t of the stack read at (p, h, w) is the stack at plane 16 t + p (`blk0_read`), so what point t writes
  back is block t of the stack's edge magnitude (`flushed_eq`). The 32 blocks tile the stack — plane q lies in
  block q / 16 — so after the run the result stack is the edge magnitude of the input stack (`final`), and the
  program's result is that stack viewed as a batch (`run`).
-/
import proofs.«156266_j23579370455122_2_alg».proof.Proof.Gen.KernelIdeal.Frame
import proofs.«156266_j23579370455122_2_alg».proof.Proof.Shift
import proofs.«156266_j23579370455122_2_alg».proof.Proof.Stack
import Idealize.ShloMosaic.Lib.Pipeline.Value
import Idealize.ShloMosaic.Lib.StableHlo.Run

noncomputable section

namespace Cert.KernelIdeal.Val

open Cert.KernelIdeal Cert.KernelIdeal.Gen Cert.KernelIdeal.Body Cert.KernelIdeal.Stack Cert.Haar
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Both windows' blocks are numbered by the grid point along the planes and are whole along rows and columns. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Plane `p` of block `T` is plane `16 T + p` of the stack. -/
def plane (T : Nat) (hT : T < 32) (p : Fin 16) : Fin 512 := ⟨T * 16 + p.val, by have := p.isLt; omega⟩

/-- A block that holds planes `16 T …` of a stack `Y` has, as its stored value, the stack's edge magnitude on
    those planes: the reflected neighbours stay inside the plane, hence inside the block. -/
theorem block_value (x0 : Vec Ideal S16x256x256 .f32) (Y : S512x256x256.Idx → EReal) (T : Nat) (hT : T < 32)
    (hx : ∀ y : S16x256x256.Idx, x0 y = Y (ix3 (plane T hT (y 0)) (y 1) (y 2))) (j : S16x256x256.Idx) :
    k0_pay1 x0 j = edge3 magK Y (ix3 (plane T hT (j 0)) (j 1) (j 2)) := by
  obtain ⟨p, h, w, rfl⟩ : ∃ (p : Fin 16) (h w : Fin 256), j = ix3 p h w := ⟨j 0, j 1, j 2, eq_ix3 j⟩
  show k0_pay1 x0 (ix3 p h w) = edge3 magK Y (ix3 (plane T hT p) h w)
  rw [pay_apply, edge3_ix3]
  unfold tap3
  rw [hx, hx, hx, hx]

/-- The input block at point `t`, read at `y`, is the stack as the region finds it at plane `16 t + y₀`. -/
theorem blk0_read (c : Dev nD) (t : Fin cfg0.N) (ht : t.val < 32) (y : S16x256x256.Idx) :
    iblk m c 0 t y = V m c main_v0 (ix3 (plane t.val ht (y 0)) (y 1) (y 2)) := by
  obtain ⟨e0, e1, e2, -, -, -⟩ := idx_facts t
  show V m c main_v0 (((cfg0.win 0).blk t).view.emb y) = _
  refine congrArg (V m c main_v0) (funext fun a => Fin.ext ?_)
  match a with
  | ⟨0, _⟩ => show win0_0.index t (0 : Fin 3) * 16 + 1 * (y 0).val = t.val * 16 + (y 0).val; omega
  | ⟨1, _⟩ => show win0_0.index t (1 : Fin 3) * 256 + 1 * (y 1).val = (y 1).val; omega
  | ⟨2, _⟩ => show win0_0.index t (2 : Fin 3) * 256 + 1 * (y 2).val = (y 2).val; omega

/-- What point `t` writes back is block `t` of the edge magnitude of the stack as the region finds it. -/
theorem flushed_eq (c : Dev nD) (t : Fin cfg0.N) :
    (dats m 0 c).flushed 1 t = ((cfg0.win 1).blk t).view.read (Elt Ideal) (edge3 magK (V m c main_v0)) := by
  show (cfg0.win 1).cut (grid0.coords t) ((dats m 0 c).after 1 t) = _
  rw [after0_1]
  unfold out0_1
  rw [View.canon_unit_zero hz]
  simp only [View.ld_unit_zero (S := S16x256x256) hz]
  obtain ⟨-, -, -, e3, e4, e5⟩ := idx_facts t
  have ht : t.val < 32 := Nat.lt_of_lt_of_eq t.isLt N_0
  funext j
  show k0_pay1 (iblk m c 0 t) j = edge3 magK (V m c main_v0) (((cfg0.win 1).blk t).view.emb j)
  refine (block_value (iblk m c 0 t) (V m c main_v0) t.val ht (fun y => blk0_read m c t ht y) j).trans ?_
  refine congrArg (edge3 magK (V m c main_v0)) (funext fun a => Fin.ext ?_)
  match a with
  | ⟨0, _⟩ => show t.val * 16 + (j 0).val = win0_1.index t (0 : Fin 3) * 16 + 1 * (j 0).val; omega
  | ⟨1, _⟩ => show (j 1).val = win0_1.index t (1 : Fin 3) * 256 + 1 * (j 1).val; omega
  | ⟨2, _⟩ => show (j 2).val = win0_1.index t (2 : Fin 3) * 256 + 1 * (j 2).val; omega

/-- An index of the result stack is in point `t`'s block iff each coordinate is in the block's range on its axis. -/
theorem mem_blk (t : Fin cfg0.N) (i : S512x256x256.Idx) :
    i ∈ ((cfg0.win 1).blk t).view.set ↔ ∀ a : Fin 3, win0_1.index t a * S16x256x256.size a ≤ (i a).val ∧ (i a).val < win0_1.index t a * S16x256x256.size a + S16x256x256.size a := by
  show i ∈ ((View.whole main_v1).slice (win0_1.rect t)).set ↔ _
  rw [View.set_slice_whole, Rect.mem_set_unit]
  exact Iff.rfl

/-- The blocks tile the result stack: plane `q` lies in the block of point `q / 16`. -/
theorem cover (i : S512x256x256.Idx) :
    ∃ t : Fin cfg0.N, (cfg0.win 1).flush t = true ∧ i ∈ ((cfg0.win 1).blk t).view.set := by
  have hi0 : (i 0).val < 512 := (i 0).isLt
  have hi1 : (i 1).val < 256 := (i 1).isLt
  have hi2 : (i 2).val < 256 := (i 2).isLt
  have hlt : (i 0).val / 16 < cfg0.N := by
    have hN : cfg0.N = 32 := N_0
    rw [hN]; omega
  obtain ⟨-, -, -, e3, e4, e5⟩ := idx_facts ⟨(i 0).val / 16, hlt⟩
  refine ⟨⟨(i 0).val / 16, hlt⟩, flush0_1 _, ?_⟩
  rw [mem_blk]
  intro a
  match a with
  | ⟨0, _⟩ =>
    show win0_1.index ⟨(i 0).val / 16, hlt⟩ (0 : Fin 3) * 16 ≤ (i 0).val ∧ (i 0).val < win0_1.index ⟨(i 0).val / 16, hlt⟩ (0 : Fin 3) * 16 + 16
    have e3' : win0_1.index ⟨(i 0).val / 16, hlt⟩ (0 : Fin 3) = (i 0).val / 16 := e3
    omega
  | ⟨1, _⟩ =>
    show win0_1.index ⟨(i 0).val / 16, hlt⟩ (1 : Fin 3) * 256 ≤ (i 1).val ∧ (i 1).val < win0_1.index ⟨(i 0).val / 16, hlt⟩ (1 : Fin 3) * 256 + 256
    omega
  | ⟨2, _⟩ =>
    show win0_1.index ⟨(i 0).val / 16, hlt⟩ (2 : Fin 3) * 256 ≤ (i 2).val ∧ (i 2).val < win0_1.index ⟨(i 0).val / 16, hlt⟩ (2 : Fin 3) * 256 + 256
    omega

/-- After the region the result stack is the edge magnitude of the stack the region found. -/
theorem final (c : Dev nD) : (dats m 0 c).arrAt 1 cfg0.N = edge3 magK (V m c main_v0) :=
  (dats m 0 c).arrAt_eq_of_cover 1 (edge3 magK (V m c main_v0)) (fun t _ => flushed_eq m c t) cover

/-- The stack the region finds is the argument batch, viewed as a stack. -/
theorem V_main_v0 (c : Dev nD) :
    (V m c main_v0 : S512x256x256.Idx → EReal)
      = shapeCast S512x256x256 (m ((c : Thread nD τ).loc main_arg0)) shapeCasts_S8x64x256x256_S512x256x256 := by
  show StableHlo.after hostOps0 (fun b => m (c, b)) (Proc.devRef .tc main_v0) = _
  after_results
  rfl

/-- The program's result is the result stack, viewed as a batch. -/
theorem tail_main_v2 (c : Dev nD) :
    (Pipeline.afterTail₀ cfgs (dats m) 0 (V0 m) [hostOps1] c main_v2 : S8x64x256x256.Idx → EReal)
      = shapeCast S8x64x256x256 ((dats m 0 c).arrAt 1 cfg0.N) shapeCasts_S512x256x256_S8x64x256x256 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 1
  exact congrArg (fun z => shapeCast S8x64x256x256 z shapeCasts_S512x256x256_S8x64x256x256) e

/-- At the exact instance, from any memory with zero counters: every weakly fair execution of the kernel program
    terminates with the result buffer at `kerOut` of the argument as launched, and the argument unchanged. -/
theorem run : θ_run defs (onTc (τ := τ) (main (F := Ideal))) ⟨m, fun _ => 0, ρ⟩ fun r => ∀ c : Dev nD,
      r.2.mem ((c.tc : Thread nD τ).loc main_v2) = kerOut (m ((c.tc : Thread nD τ).loc main_arg0))
      ∧ r.2.mem ((c.tc : Thread nD τ).loc main_arg0) = m ((c.tc : Thread nD τ).loc main_arg0) :=
  (θ_run defs _ _).mono (fun r h c => ⟨
      ((h c).2 main_v2 (Pipeline.mem_restRefs_of main_v2 (by decide) (by decide))).trans
        ((tail_main_v2 m c).trans (by rw [final, V_main_v0]; rfl)),
      ((h c).2 main_arg0 (Pipeline.mem_restRefs_of main_arg0 (by decide) (by decide))).trans (W_main_arg0 m (dats m) c)⟩)
    (run_main m ρ)

end Cert.KernelIdeal.Val

end
-- ==== Proof.RefRun.lean ====
/-
  The reference program's run, read back.

  The reference pads each 256 x 256 plane by one row below and one column to the right, by reflection (the new
  row is row 254, the new column is column 254 of the already padded plane, so the new corner is entry
  (254, 254)), takes the four 256 x 256 windows of the padded plane at offsets (0,0), (0,1), (1,0), (1,1) as
  the taps a, b, c, d, and returns sqrt (hl² + lh² + hh²) of the three half-differences.
  The program is a straight line of 39 array operations once the padding function and the two
  reversals it calls are written out at their call sites; every execution ends with the result buffer at
  that composition (`refOut`) of the argument, and the argument unchanged.
-/
import proofs.«156266_j23579370455122_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the padding function and its two reversals written out where they are called. -/
abbrev ops : List (HloOp τ sig (Elt F)) :=
  [ nullary main_c (constantI S_ 32 0#32),
    TRef.unary (TRef.of main_arg0 : TRef sig ⟨S8x64x256x256, .f32⟩) main_call0.v0 (extractStridedSlice S8x64x1x256 ![0, 0, 0, 0] · slices_S8x64x256x256_S8x64x1x256_0_0_0_0),
    TRef.unary (TRef.of main_arg0 : TRef sig ⟨S8x64x256x256, .f32⟩) main_call0.v1 (extractStridedSlice S8x64x1x256 ![0, 0, 255, 0] · slices_S8x64x256x256_S8x64x1x256_0_0_255_0),
    TRef.unary (TRef.of main_arg0 : TRef sig ⟨S8x64x256x256, .f32⟩) main_call0.v2 (extractStridedSlice S8x64x1x256 ![0, 0, 254, 0] · slices_S8x64x256x256_S8x64x1x256_0_0_254_0),
    TRef.unary main_call0.v2 main_call0.call0.v0 (Host.reverse [2]),
    TRef.binary (TRef.of main_arg0 : TRef sig ⟨S8x64x256x256, .f32⟩) main_call0.call0.v0 main_call0.v4 (fun a b => concatenate S8x64x257x256 2 [⟨S8x64x256x256, a⟩, ⟨S8x64x1x256, b⟩] concatenates_S8x64x256x256_S8x64x1x256_S8x64x257x256_d2),
    TRef.unary main_call0.v4 main_call0.v5 (extractStridedSlice S8x64x257x1 ![0, 0, 0, 0] · slices_S8x64x257x256_S8x64x257x1_0_0_0_0),
    TRef.unary main_call0.v4 main_call0.v6 (extractStridedSlice S8x64x257x1 ![0, 0, 0, 255] · slices_S8x64x257x256_S8x64x257x1_0_0_0_255),
    TRef.unary main_call0.v4 main_call0.v7 (extractStridedSlice S8x64x257x1 ![0, 0, 0, 254] · slices_S8x64x257x256_S8x64x257x1_0_0_0_254),
    TRef.unary main_call0.v7 main_call0.call1.v0 (Host.reverse [3]),
    TRef.binary main_call0.v4 main_call0.call1.v0 main_call0.v9 (fun a b => concatenate S8x64x257x257 3 [⟨S8x64x257x256, a⟩, ⟨S8x64x257x1, b⟩] concatenates_S8x64x257x256_S8x64x257x1_S8x64x257x257_d3),
    unary main_v0 main_v1 ((extractStridedSlice S8x64x256x256 ![0, 0, 0, 0] · slices_S8x64x257x257_S8x64x256x256_0_0_0_0) : (⟨S8x64x257x257, .f32⟩ : BufTy).Contents (Elt F) → (⟨S8x64x256x256, .f32⟩ : BufTy).Contents (Elt F)),
    unary main_v0 main_v2 ((extractStridedSlice S8x64x256x256 ![0, 0, 0, 1] · slices_S8x64x257x257_S8x64x256x256_0_0_0_1) : (⟨S8x64x257x257, .f32⟩ : BufTy).Contents (Elt F) → (⟨S8x64x256x256, .f32⟩ : BufTy).Contents (Elt F)),
    unary main_v0 main_v3 ((extractStridedSlice S8x64x256x256 ![0, 0, 1, 0] · slices_S8x64x257x257_S8x64x256x256_0_0_1_0) : (⟨S8x64x257x257, .f32⟩ : BufTy).Contents (Elt F) → (⟨S8x64x256x256, .f32⟩ : BufTy).Contents (Elt F)),
    unary main_v0 main_v4 ((extractStridedSlice S8x64x256x256 ![0, 0, 1, 1] · slices_S8x64x257x257_S8x64x256x256_0_0_1_1) : (⟨S8x64x257x257, .f32⟩ : BufTy).Contents (Elt F) → (⟨S8x64x256x256, .f32⟩ : BufTy).Contents (Elt F)),
    binary main_v1 main_v2 main_v5 (addf : (⟨S8x64x256x256, .f32⟩ : BufTy).Contents (Elt F) → (⟨S8x64x256x256, .f32⟩ : BufTy).Contents (Elt F) → (⟨S8x64x256x256, .f32⟩ : BufTy).Contents (Elt F)),
    binary main_v5 main_v3 main_v6 (subf : (⟨S8x64x256x256, .f32⟩ : BufTy).Contents (Elt F) → (⟨S8x64x256x256, .f32⟩ : BufTy).Contents (Elt F) → (⟨S8x64x256x256, .f32⟩ : BufTy).Contents (Elt F)),
    binary main_v6 main_v4 main_v7 (subf : (⟨S8x64x256x256, .f32⟩ : BufTy).Contents (Elt F) → (⟨S8x64x256x256, .f32⟩ : BufTy).Contents (Elt F) → (⟨S8x64x256x256, .f32⟩ : BufTy).Contents (Elt F)),
    nullary main_cst (constant S_ .f32 0x3F000000#32),
    unary main_cst main_v8 (broadcastInDim S8x64x256x256 ![] bcast_S_S8x64x256x256 : (⟨S_, .f32⟩ : BufTy).Contents (Elt F) → (⟨S8x64x256x256, .f32⟩ : BufTy).Contents (Elt F)),
    binary main_v8 main_v7 main_v9 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v10 (subf : (⟨S8x64x256x256, .f32⟩ : BufTy).Contents (Elt F) → (⟨S8x64x256x256, .f32⟩ : BufTy).Contents (Elt F) → (⟨S8x64x256x256, .f32⟩ : BufTy).Contents (Elt F)),
    binary main_v10 main_v3 main_v11 (addf : (⟨S8x64x256x256, .f32⟩ : BufTy).Contents (Elt F) → (⟨S8x64x256x256, .f32⟩ : BufTy).Contents (Elt F) → (⟨S8x64x256x256, .f32⟩ : BufTy).Contents (Elt F)),
    binary main_v11 main_v4 main_v12 (subf : (⟨S8x64x256x256, .f32⟩ : BufTy).Contents (Elt F) → (⟨S8x64x256x256, .f32⟩ : BufTy).Contents (Elt F) → (⟨S8x64x256x256, .f32⟩ : BufTy).Contents (Elt F)),
    nullary main_cst_0 (constant S_ .f32 0x3F000000#32),
    unary main_cst_0 main_v13 (broadcastInDim S8x64x256x256 ![] bcast_S_S8x64x256x256 : (⟨S_, .f32⟩ : BufTy).Contents (Elt F) → (⟨S8x64x256x256, .f32⟩ : BufTy).Contents (Elt F)),
    binary main_v13 main_v12 main_v14 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v2 main_v15 (subf : (⟨S8x64x256x256, .f32⟩ : BufTy).Contents (Elt F) → (⟨S8x64x256x256, .f32⟩ : BufTy).Contents (Elt F) → (⟨S8x64x256x256, .f32⟩ : BufTy).Contents (Elt F)),
    binary main_v15 main_v3 main_v16 (subf : (⟨S8x64x256x256, .f32⟩ : BufTy).Contents (Elt F) → (⟨S8x64x256x256, .f32⟩ : BufTy).Contents (Elt F) → (⟨S8x64x256x256, .f32⟩ : BufTy).Contents (Elt F)),
    binary main_v16 main_v4 main_v17 (addf : (⟨S8x64x256x256, .f32⟩ : BufTy).Contents (Elt F) → (⟨S8x64x256x256, .f32⟩ : BufTy).Contents (Elt F) → (⟨S8x64x256x256, .f32⟩ : BufTy).Contents (Elt F)),
    nullary main_cst_1 (constant S_ .f32 0x3F000000#32),
    unary main_cst_1 main_v18 (broadcastInDim S8x64x256x256 ![] bcast_S_S8x64x256x256 : (⟨S_, .f32⟩ : BufTy).Contents (Elt F) → (⟨S8x64x256x256, .f32⟩ : BufTy).Contents (Elt F)),
    binary main_v18 main_v17 main_v19 (mulf : (⟨S8x64x256x256, .f32⟩ : BufTy).Contents (Elt F) → (⟨S8x64x256x256, .f32⟩ : BufTy).Contents (Elt F) → (⟨S8x64x256x256, .f32⟩ : BufTy).Contents (Elt F)),
    binary main_v9 main_v9 main_v20 (mulf : (⟨S8x64x256x256, .f32⟩ : BufTy).Contents (Elt F) → (⟨S8x64x256x256, .f32⟩ : BufTy).Contents (Elt F) → (⟨S8x64x256x256, .f32⟩ : BufTy).Contents (Elt F)),
    binary main_v14 main_v14 main_v21 (mulf : (⟨S8x64x256x256, .f32⟩ : BufTy).Contents (Elt F) → (⟨S8x64x256x256, .f32⟩ : BufTy).Contents (Elt F) → (⟨S8x64x256x256, .f32⟩ : BufTy).Contents (Elt F)),
    binary main_v20 main_v21 main_v22 (addf : (⟨S8x64x256x256, .f32⟩ : BufTy).Contents (Elt F) → (⟨S8x64x256x256, .f32⟩ : BufTy).Contents (Elt F) → (⟨S8x64x256x256, .f32⟩ : BufTy).Contents (Elt F)),
    binary main_v19 main_v19 main_v23 (mulf : (⟨S8x64x256x256, .f32⟩ : BufTy).Contents (Elt F) → (⟨S8x64x256x256, .f32⟩ : BufTy).Contents (Elt F) → (⟨S8x64x256x256, .f32⟩ : BufTy).Contents (Elt F)),
    binary main_v22 main_v23 main_v24 (addf : (⟨S8x64x256x256, .f32⟩ : BufTy).Contents (Elt F) → (⟨S8x64x256x256, .f32⟩ : BufTy).Contents (Elt F) → (⟨S8x64x256x256, .f32⟩ : BufTy).Contents (Elt F)),
    unary main_v24 main_v25 (Host.sqrt : (⟨S8x64x256x256, .f32⟩ : BufTy).Contents (Elt F) → (⟨S8x64x256x256, .f32⟩ : BufTy).Contents (Elt F)) ]

set_option maxRecDepth 2048 in
/-- The program is that straight line: the called functions unfolded and the sequencing reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., unary_bufs_sub ..⟩

/-- A batch of planes padded by one row below, by reflection: the new row 256 is row 254 again (the one-row slice
    is reversed along its one row, which changes nothing). -/
def rowpad (x : FVec F S8x64x256x256 .f32) : FVec F S8x64x257x256 .f32 :=
  concatenate S8x64x257x256 2
    [⟨S8x64x256x256, x⟩,
     ⟨S8x64x1x256, Host.reverse [2] (extractStridedSlice S8x64x1x256 ![0, 0, 254, 0] x slices_S8x64x256x256_S8x64x1x256_0_0_254_0)⟩]
    concatenates_S8x64x256x256_S8x64x1x256_S8x64x257x256_d2

/-- The row-padded batch padded by one column to the right, by reflection: the new column 256 is column 254 again. -/
def padded (x : FVec F S8x64x256x256 .f32) : FVec F S8x64x257x257 .f32 :=
  concatenate S8x64x257x257 3
    [⟨S8x64x257x256, rowpad x⟩,
     ⟨S8x64x257x1, Host.reverse [3] (extractStridedSlice S8x64x257x1 ![0, 0, 0, 254] (rowpad x) slices_S8x64x257x256_S8x64x257x1_0_0_0_254)⟩]
    concatenates_S8x64x257x256_S8x64x257x1_S8x64x257x257_d3

/-- The half-differences' magnitude of four arrays of taps. -/
def subbands (a b c d : FVec F S8x64x256x256 .f32) : FVec F S8x64x256x256 .f32 :=
  Host.sqrt (addf (addf
    (mulf (mulf (broadcastInDim S8x64x256x256 ![] bcast_S_S8x64x256x256 (constant S_ .f32 0x3F000000#32)) (subf (subf (addf a b) c) d))
          (mulf (broadcastInDim S8x64x256x256 ![] bcast_S_S8x64x256x256 (constant S_ .f32 0x3F000000#32)) (subf (subf (addf a b) c) d)))
    (mulf (mulf (broadcastInDim S8x64x256x256 ![] bcast_S_S8x64x256x256 (constant S_ .f32 0x3F000000#32)) (subf (addf (subf a b) c) d))
          (mulf (broadcastInDim S8x64x256x256 ![] bcast_S_S8x64x256x256 (constant S_ .f32 0x3F000000#32)) (subf (addf (subf a b) c) d))))
    (mulf (mulf (broadcastInDim S8x64x256x256 ![] bcast_S_S8x64x256x256 (constant S_ .f32 0x3F000000#32)) (addf (subf (subf a b) c) d))
          (mulf (broadcastInDim S8x64x256x256 ![] bcast_S_S8x64x256x256 (constant S_ .f32 0x3F000000#32)) (addf (subf (subf a b) c) d))))

/-- The reference's result as a function of its argument: the magnitude of the four windows of the padded batch. -/
def refOut (x : FVec F S8x64x256x256 .f32) : FVec F S8x64x256x256 .f32 :=
  subbands
    (extractStridedSlice S8x64x256x256 ![0, 0, 0, 0] (padded x) slices_S8x64x257x257_S8x64x256x256_0_0_0_0)
    (extractStridedSlice S8x64x256x256 ![0, 0, 0, 1] (padded x) slices_S8x64x257x257_S8x64x256x256_0_0_0_1)
    (extractStridedSlice S8x64x256x256 ![0, 0, 1, 0] (padded x) slices_S8x64x257x257_S8x64x256x256_0_0_1_0)
    (extractStridedSlice S8x64x256x256 ![0, 0, 1, 1] (padded x) slices_S8x64x257x257_S8x64x256x256_0_0_1_1)

attribute [local irreducible] concatenate extractStridedSlice Host.reverse Host.sqrt broadcastInDim in
set_option maxRecDepth 8192 in
set_option maxHeartbeats 1000000 in
/-- The operations' composition at the result buffer is `refOut` of the argument's contents: the fold unrolled,
    each operation's result read where it was written. -/
theorem out_eq (V : Valuation τ sig (Elt F)) :
    after ops V (main_v25 : DevRef τ sig) = refOut (V (main_arg0 : DevRef τ sig)) := by
  simp only [after_cons, after_nil]
  rfl

/-- No operation writes the argument. -/
theorem arg0_eq (V : Valuation τ sig (Elt F)) :
    after ops V (main_arg0 : DevRef τ sig) = V (main_arg0 : DevRef τ sig) := by
  after_results_simp

/-- On every device, from any memory with zero counters: every weakly fair execution of the reference terminates
    with the result buffer at `refOut` of the argument as launched, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v25).trans (out_eq _),
      (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference's result, index by index.

  The padded plane read at (h, w), for h, w in 0 … 256, is the plane at (rf h, rf w), where rf 256 = 254 and
  rf i = i otherwise: the padding appends row 254 and then column 254 of the row-padded plane, and reversing a
  slice of one row (or one column) along that axis changes nothing. The four windows of the padded plane at
  offsets (0,0), (0,1), (1,0), (1,1) therefore read the plane at (h, w), (h, nx w), (nx h, w), (nx h, nx w),
  because rf (i + 1) = nx i for i below 256. So the reference's result is the edge magnitude in its
  three-subband form (`refOut_eq`).
-/
import proofs.«156266_j23579370455122_2_alg».proof.Proof.RefRun
import proofs.«156266_j23579370455122_2_alg».proof.Proof.Haar
import Idealize.ShloMosaic.Lib.Pipeline.Value
import Idealize.ShloMosaic.Lib.ValueIdx

noncomputable section

namespace Cert.ReferenceIdeal.Hand

open Cert.ReferenceIdeal Cert.ReferenceIdeal.Gen Cert.Haar
open Idealize.ShloMosaic Idealize.ShloMosaic.ValueIdx

variable {F : FTy → Type} [FloatOps F]

/-- A coordinate of the padded axis read back on the original axis: the appended position 256 is 254. -/
def rf (i : Fin 257) : Fin 256 :=
  if h : i.val = 256 then ⟨254, by decide⟩ else ⟨i.val, by have := i.isLt; omega⟩

theorem rf_val (i : Fin 257) : (rf i).val = if i.val = 256 then 254 else i.val := by
  unfold rf; split <;> rfl

/-- Reversing a one-row slice along its one row changes nothing. -/
theorem reverse_row (z : FVec F S8x64x1x256 .f32) (n : Fin 8) (ch : Fin 64) (w : Fin 256) :
    Host.reverse [2] z (ix4 n ch (0 : Fin 1) w) = z (ix4 n ch (0 : Fin 1) w) := by
  show z (fun a => if a ∈ [2] then ((ix4 n ch (0 : Fin 1) w) a).rev else (ix4 n ch (0 : Fin 1) w) a) = _
  refine congrArg z (funext fun a => ?_)
  match a with
  | ⟨0, _⟩ => rfl
  | ⟨1, _⟩ => rfl
  | ⟨2, _⟩ => rfl
  | ⟨3, _⟩ => rfl

/-- Reversing a one-column slice along its one column changes nothing. -/
theorem reverse_col (z : FVec F S8x64x257x1 .f32) (n : Fin 8) (ch : Fin 64) (h : Fin 257) :
    Host.reverse [3] z (ix4 n ch h (0 : Fin 1)) = z (ix4 n ch h (0 : Fin 1)) := by
  show z (fun a => if a ∈ [3] then ((ix4 n ch h (0 : Fin 1)) a).rev else (ix4 n ch h (0 : Fin 1)) a) = _
  refine congrArg z (funext fun a => ?_)
  match a with
  | ⟨0, _⟩ => rfl
  | ⟨1, _⟩ => rfl
  | ⟨2, _⟩ => rfl
  | ⟨3, _⟩ => rfl

/-- The row-padded batch at `(n, ch, h, w)` is the batch at row `rf h`. -/
theorem rowpad_apply (x : FVec F S8x64x256x256 .f32) (n : Fin 8) (ch : Fin 64) (h : Fin 257) (w : Fin 256) :
    rowpad x (ix4 n ch h w) = x (ix4 n ch (rf h) w) := by
  unfold rowpad
  by_cases hh : h.val = 256
  · refine (concatenate_pair_apply_right 2 x _ concatenates_S8x64x256x256_S8x64x1x256_S8x64x257x256_d2
      (ix4 n ch h w) rfl rfl (ix4 n ch (0 : Fin 1) w) (fun b hb => ?_) ?_).trans ?_
    · match b with
      | ⟨0, _⟩ => rfl
      | ⟨1, _⟩ => rfl
      | ⟨2, _⟩ => exact absurd rfl hb
      | ⟨3, _⟩ => rfl
    · show 0 + 256 = h.val
      omega
    · rw [reverse_row]
      refine (extractStridedSlice_apply ![0, 0, 254, 0] x slices_S8x64x256x256_S8x64x1x256_0_0_254_0
        (ix4 n ch (0 : Fin 1) w) (ix4 n ch (⟨254, by decide⟩ : Fin 256) w) (fun a => ?_)).trans ?_
      · match a with
        | ⟨0, _⟩ => show n.val = 0 + n.val; omega
        | ⟨1, _⟩ => show ch.val = 0 + ch.val; omega
        | ⟨2, _⟩ => show (254 : Nat) = 254 + 0; rfl
        | ⟨3, _⟩ => show w.val = 0 + w.val; omega
      · exact congrArg (fun k => x (ix4 n ch k w)) (Fin.ext (by rw [rf_val, if_pos hh]))
  · have hlt : h.val < 256 := by have := h.isLt; omega
    refine (concatenate_pair_apply_left 2 x _ concatenates_S8x64x256x256_S8x64x1x256_S8x64x257x256_d2
      (ix4 n ch h w) rfl (ix4 n ch (⟨h.val, hlt⟩ : Fin 256) w) (fun b => ?_)).trans ?_
    · match b with
      | ⟨0, _⟩ => rfl
      | ⟨1, _⟩ => rfl
      | ⟨2, _⟩ => rfl
      | ⟨3, _⟩ => rfl
    · exact congrArg (fun k => x (ix4 n ch k w)) (Fin.ext (by rw [rf_val, if_neg hh]))

/-- The padded batch at `(n, ch, h, w)` is the batch at row `rf h`, column `rf w`. -/
theorem padded_apply (x : FVec F S8x64x256x256 .f32) (n : Fin 8) (ch : Fin 64) (h w : Fin 257) :
    padded x (ix4 n ch h w) = x (ix4 n ch (rf h) (rf w)) := by
  unfold padded
  by_cases hw : w.val = 256
  · refine (concatenate_pair_apply_right 3 (rowpad x) _ concatenates_S8x64x257x256_S8x64x257x1_S8x64x257x257_d3
      (ix4 n ch h w) rfl rfl (ix4 n ch h (0 : Fin 1)) (fun b hb => ?_) ?_).trans ?_
    · match b with
      | ⟨0, _⟩ => rfl
      | ⟨1, _⟩ => rfl
      | ⟨2, _⟩ => rfl
      | ⟨3, _⟩ => exact absurd rfl hb
    · show 0 + 256 = w.val
      omega
    · rw [reverse_col]
      refine (extractStridedSlice_apply ![0, 0, 0, 254] (rowpad x) slices_S8x64x257x256_S8x64x257x1_0_0_0_254
        (ix4 n ch h (0 : Fin 1)) (ix4 n ch h (⟨254, by decide⟩ : Fin 256)) (fun a => ?_)).trans ?_
      · match a with
        | ⟨0, _⟩ => show n.val = 0 + n.val; omega
        | ⟨1, _⟩ => show ch.val = 0 + ch.val; omega
        | ⟨2, _⟩ => show h.val = 0 + h.val; omega
        | ⟨3, _⟩ => show (254 : Nat) = 254 + 0; rfl
      · rw [rowpad_apply]
        exact congrArg (fun k => x (ix4 n ch (rf h) k)) (Fin.ext (by rw [rf_val, if_pos hw]))
  · have hlt : w.val < 256 := by have := w.isLt; omega
    refine (concatenate_pair_apply_left 3 (rowpad x) _ concatenates_S8x64x257x256_S8x64x257x1_S8x64x257x257_d3
      (ix4 n ch h w) rfl (ix4 n ch h (⟨w.val, hlt⟩ : Fin 256)) (fun b => ?_)).trans ?_
    · match b with
      | ⟨0, _⟩ => rfl
      | ⟨1, _⟩ => rfl
      | ⟨2, _⟩ => rfl
      | ⟨3, _⟩ => rfl
    · rw [rowpad_apply]
      exact congrArg (fun k => x (ix4 n ch (rf h) k)) (Fin.ext (by rw [rf_val, if_neg hw]))

/-- A position below 256 on the padded axis, and the position after it. -/
def here (i : Fin 256) : Fin 257 := ⟨i.val, by have := i.isLt; omega⟩
def next (i : Fin 256) : Fin 257 := ⟨i.val + 1, by have := i.isLt; omega⟩

theorem rf_here (i : Fin 256) : rf (here i) = i :=
  Fin.ext (by rw [rf_val]; show (if i.val = 256 then 254 else i.val) = i.val; have := i.isLt; rw [if_neg (by omega)])

theorem rf_next (i : Fin 256) : rf (next i) = nx i :=
  Fin.ext (by
    rw [rf_val, nx_val]
    show (if i.val + 1 = 256 then 254 else i.val + 1) = if i.val = 255 then 254 else i.val + 1
    by_cases h : i.val = 255
    · rw [if_pos h, if_pos (by omega)]
    · rw [if_neg h, if_neg (by omega)])

/-- The window of the padded batch at offset `(dh, dw)`, each 0 or 1, read at `(n, ch, h, w)`. -/
theorem window_apply (x : FVec F S8x64x256x256 .f32) (dh dw : Nat) (hs : S8x64x257x257.Slices ![0, 0, dh, dw] S8x64x256x256)
    (n : Fin 8) (ch : Fin 64) (h w : Fin 256) (h' w' : Fin 257) (eh : h'.val = dh + h.val) (ew : w'.val = dw + w.val) :
    extractStridedSlice S8x64x256x256 ![0, 0, dh, dw] (padded x) hs (ix4 n ch h w) = x (ix4 n ch (rf h') (rf w')) := by
  refine (extractStridedSlice_apply ![0, 0, dh, dw] (padded x) hs (ix4 n ch h w) (ix4 n ch h' w') (fun a => ?_)).trans
    (padded_apply x n ch h' w')
  match a with
  | ⟨0, _⟩ => show n.val = 0 + n.val; omega
  | ⟨1, _⟩ => show ch.val = 0 + ch.val; omega
  | ⟨2, _⟩ => exact eh
  | ⟨3, _⟩ => exact ew

/-- At the exact instance the half-differences' magnitude is `magR` of the four entries, index by index. -/
theorem subbands_apply (a b c d : FVec Ideal S8x64x256x256 .f32) (i : S8x64x256x256.Idx) :
    subbands a b c d i = magR (a i) (b i) (c i) (d i) := rfl

/-- The reference's result is the edge magnitude of the batch, in its three-subband form. -/
theorem refOut_eq (x : FVec Ideal S8x64x256x256 .f32) : refOut x = edge4 magR x := by
  funext i
  obtain ⟨n, ch, h, w, rfl⟩ : ∃ (n : Fin 8) (ch : Fin 64) (h w : Fin 256), i = ix4 n ch h w :=
    ⟨i 0, i 1, i 2, i 3, eq_ix4 i⟩
  unfold refOut
  rw [subbands_apply, edge4_ix4]
  unfold tap4
  rw [window_apply x 0 0 _ n ch h w (here h) (here w) (by show h.val = 0 + h.val; omega) (by show w.val = 0 + w.val; omega),
    window_apply x 0 1 _ n ch h w (here h) (next w) (by show h.val = 0 + h.val; omega) (by show w.val + 1 = 1 + w.val; omega),
    window_apply x 1 0 _ n ch h w (next h) (here w) (by show h.val + 1 = 1 + h.val; omega) (by show w.val = 0 + w.val; omega),
    window_apply x 1 1 _ n ch h w (next h) (next w) (by show h.val + 1 = 1 + h.val; omega) (by show w.val + 1 = 1 + w.val; omega)]
  rw [rf_here, rf_here, rf_next, rf_next]

end Cert.ReferenceIdeal.Hand

end
-- ==== Proof.Finite.lean ====
/-
  Finite inputs are real numbers.

  The precondition says that every entry x of the input satisfies |x| < +inf, where |x| is max x (-x) on the
  extended reals. Both infinities have |x| = +inf, so every entry is a real number. This is what lets the
  algebraic law between the two forms of the magnitude (an identity of real arithmetic) be applied.
-/
import proofs.«156266_j23579370455122_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

/-- The scalar shape has one index. -/
instance : Subsingleton S_.Idx := ⟨fun a b => funext fun d => d.elim0⟩

/-- The binary word of +inf denotes the top of the extended reals. -/
theorem inf_eq : Ideal.ofBits .f32 0x7F800000#32 = (⊤ : EReal) := by
  simp [Ideal.ofBits, Ideal.ieee]

/-- An extended real whose absolute value is below +inf is a real. -/
theorem real_of_abs_lt_top (v : EReal) (h : max v (-v) < ⊤) : ∃ r : ℝ, v = (r : EReal) := by
  induction v using EReal.rec with
  | bot => simp at h
  | coe r => exact ⟨r, rfl⟩
  | top => simp at h

/-- If the printed precondition holds of an array, every entry of the array is a real number. -/
theorem real_of_fn (x : FVec Ideal S8x64x256x256 .f32) (h : Cert.Pre_finite_inputs.fn (F := Ideal) x = fun _ => 1#1)
    (i : S8x64x256x256.Idx) : ∃ r : ℝ, x i = (r : EReal) := by
  have h0 := congrFun h ValueIdx.ix0
  dsimp only [Cert.Pre_finite_inputs.fn] at h0
  have hi := Host.reduce_andi_all _ _ _ _ ValueIdx.ix0 h0 i
  have hc : Ideal.cmp .olt (max (x i) (-(x i))) (Ideal.ofBits .f32 0x7F800000#32) = 1#1 := hi
  rw [inf_eq] at hc
  refine real_of_abs_lt_top (x i) ?_
  have hc' : BitVec.ofBool (decide (max (x i) (-(x i)) < (⊤ : EReal))) = 1#1 := hc
  cases hd : decide (max (x i) (-(x i)) < (⊤ : EReal)) with
  | true => exact of_decide_eq_true hd
  | false => rw [hd] at hc'; exact absurd hc' (by decide)

end Cert.Finite

end
-- ==== Proof.lean ====
/-
  The Haar edge magnitude: a tiled kernel against its padded reference.

  Both programs compute, at every position (h, w) of every 256 x 256 plane of a batch of 8 x 64 planes, the
  magnitude of the three detail subbands of the 2 x 2 Haar stencil with taps
    a = x[h, w],  b = x[h, w'],  c = x[h', w],  d = x[h', w'],   where i' = i + 1 and 255' = 254.
  The reference builds the taps by padding each plane by reflection and taking four shifted windows, and returns
  sqrt (hl² + lh² + hh²) of the half-differences. The kernel views the batch as a stack of 512 planes, handles
  16 whole planes per grid point, builds the taps by a rotation corrected at the last row or column, and returns
  sqrt ((p² + q²)/2 + r²/4) with p = a - d, q = b - c, r = (a + d) - (b + c).
  The two index patterns are the same function of the batch, and the two radicands are the same real number when
  the taps are real: that is where the precondition (all inputs finite) is used. The kernel's idealization rewrote
  no operation, so that claim is trivial; the three frames are the two generated ones and the reference's run.
-/
import proofs.«156266_j23579370455122_2_alg».proof.Defs
import proofs.«156266_j23579370455122_2_alg».proof.Proof.Gen.Kernel
import proofs.«156266_j23579370455122_2_alg».proof.Proof.Gen.Kernel.Frame
import proofs.«156266_j23579370455122_2_alg».proof.Proof.Gen.KernelIdeal
import proofs.«156266_j23579370455122_2_alg».proof.Proof.Gen.KernelIdeal.Frame
import proofs.«156266_j23579370455122_2_alg».proof.Proof.Gen.ReferenceIdeal
import proofs.«156266_j23579370455122_2_alg».proof.Proof.Gen.Pre_finite_inputs
import proofs.«156266_j23579370455122_2_alg».proof.Proof.KerValue
import proofs.«156266_j23579370455122_2_alg».proof.Proof.RefValue
import proofs.«156266_j23579370455122_2_alg».proof.Proof.Finite

noncomputable section

namespace Cert.Proof

open Idealize.ShloMosaic Idealize.SL.Sem

/-- The word-level kernel program terminates without fault and leaves its argument unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on a finite argument, both programs end with the edge magnitude of the batch: the
    kernel in the form `magK`, the reference in the form `magR`, one array because every entry is real. -/
theorem algebraic : Cert.algebraic_KernelIdeal_ReferenceIdeal := by
  intro m ρ m' ρ' hpre hagree
  refine ⟨fun c => Cert.Haar.edge4 Cert.Haar.magK (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Stack.kerOut_eq _), (h c).2⟩) (Cert.KernelIdeal.Val.run m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.refOut_eq, hagree c]
    exact (Cert.Haar.edge4_magK_eq_magR _ (Cert.Finite.real_of_fn _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
